-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x60x60 : Shape := ⟨4, ![16, 512, 60, 60]⟩
abbrev S32x512 : Shape := ⟨2, ![32, 512]⟩
abbrev S32 : Shape := ⟨1, ![32]⟩
abbrev S_ : Shape := ⟨0, ![]⟩

class Facts : Prop where
  bcast_S_S16x512x60x60 : S_.BroadcastsInDim S16x512x60x60 (![] : Fin 0 → Fin S16x512x60x60.rank)
  reducesTo_S16x512x60x60_S_d0_1_2_3 : S16x512x60x60.ReducesTo [0, 1, 2, 3] S_
  h_S_ : 0 < S_.numel
  bcast_S_S32x512 : S_.BroadcastsInDim S32x512 (![] : Fin 0 → Fin S32x512.rank)
  reducesTo_S32x512_S_d0_1 : S32x512.ReducesTo [0, 1] S_
  bcast_S_S32 : S_.BroadcastsInDim S32 (![] : Fin 0 → Fin S32.rank)
  reducesTo_S32_S_d0 : S32.ReducesTo [0] S_

variable [Facts]

def fn {F : FTy → Type} [FloatOps F] (main_arg0 : FVec F S16x512x60x60 .f32) (main_arg1 : FVec F S32x512 .f32) (main_arg2 : FVec F S32 .f32) : IVec S_ 1 :=
  let main_v0 : FVec F S16x512x60x60 .f32 := Host.absf main_arg0
  let main_cst : FVec F S_ .f32 := constant S_ .f32 0x7F800000#32
  let main_v1 : FVec F S16x512x60x60 .f32 := broadcastInDim S16x512x60x60 ![] bcast_S_S16x512x60x60 main_cst
  let main_v2 : IVec S16x512x60x60 1 := cmpf .olt main_v0 main_v1
  let main_c : IVec S_ 1 := constantI S_ 1 1#1
  let main_v3 : IVec S_ 1 := (fun x v => Host.reduce IntOp.andi x v reducesTo_S16x512x60x60_S_d0_1_2_3 h_S_) main_v2 main_c
  let main_v4 : FVec F S32x512 .f32 := Host.absf main_arg1
  let main_cst_0 : FVec F S_ .f32 := constant S_ .f32 0x7F800000#32
  let main_v5 : FVec F S32x512 .f32 := broadcastInDim S32x512 ![] bcast_S_S32x512 main_cst_0
  let main_v6 : IVec S32x512 1 := cmpf .olt main_v4 main_v5
  let main_c_1 : IVec S_ 1 := constantI S_ 1 1#1
  let main_v7 : IVec S_ 1 := (fun x v => Host.reduce IntOp.andi x v reducesTo_S32x512_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  main_v13
-- ==== Kernel.lean ====
abbrev S16x512x60x60 : Shape := ⟨4, ![16, 512, 60, 60]⟩
abbrev S32x512 : Shape := ⟨2, ![32, 512]⟩
abbrev S32 : Shape := ⟨1, ![32]⟩
abbrev S16x512x3600 : Shape := ⟨3, ![16, 512, 3600]⟩
abbrev S32x1 : Shape := ⟨2, ![32, 1]⟩
abbrev S16x32x512 : Shape := ⟨3, ![16, 32, 512]⟩
abbrev S1x512x3600 : Shape := ⟨3, ![1, 512, 3600]⟩
abbrev S1x32x512 : Shape := ⟨3, ![1, 32, 512]⟩
abbrev S512x3600 : Shape := ⟨2, ![512, 3600]⟩
abbrev S3600 : Shape := ⟨1, ![3600]⟩
abbrev S1x3600 : Shape := ⟨2, ![1, 3600]⟩
abbrev S32x3600 : Shape := ⟨2, ![32, 3600]⟩

abbrev nBuf : Space → Nat
  | .hbm => 6
  | .vmem => 6
  | .smem => 0
  | _ => 0

abbrev bufTy : (tb : Table) → Fin (tcTables nBuf tb) → BufTy
  | .hbm, ⟨0, _⟩ => ⟨S16x512x60x60, .f32⟩
  | .hbm, ⟨1, _⟩ => ⟨S32x512, .f32⟩
  | .hbm, ⟨2, _⟩ => ⟨S32, .f32⟩
  | .hbm, ⟨3, _⟩ => ⟨S16x512x3600, .f32⟩
  | .hbm, ⟨4, _⟩ => ⟨S32x1, .f32⟩
  | .hbm, ⟨5, _⟩ => ⟨S16x32x512, .f32⟩
  | .local _ .vmem, ⟨0, _⟩ => ⟨S1x512x3600, .f32⟩
  | .local _ .vmem, ⟨1, _⟩ => ⟨S1x512x3600, .f32⟩
  | .local _ .vmem, ⟨2, _⟩ => ⟨S32x512, .f32⟩
  | .local _ .vmem, ⟨3, _⟩ => ⟨S32x1, .f32⟩
  | .local _ .vmem, ⟨4, _⟩ => ⟨S1x32x512, .f32⟩
  | .local _ .vmem, ⟨5, _⟩ => ⟨S1x32x512, .f32⟩
  | _, _ => ⟨S16x512x60x60, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x3600 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S16x512x60x60_S16x512x3600 : S16x512x60x60.ShapeCasts S16x512x3600
  shapeCasts_S32_S32x1 : S32.ShapeCasts S32x1
  inb_S1x512x3600_S1x512x3600_0_0_0 : ∀ a, (![0, 0, 0] : Fin 3 → Nat) a + S1x512x3600.size a ≤ S1x512x3600.size a
  h_S1x512x3600 : 0 < S1x512x3600.numel
  shapeCasts_S1x512x3600_S512x3600 : S1x512x3600.ShapeCasts S512x3600
  inb_S32x512_S32x512_0_0 : ∀ a, (![0, 0] : Fin 2 → Nat) a + S32x512.size a ≤ S32x512.size a
  h_S32x512 : 0 < S32x512.numel
  inb_S32x1_S32x1_0_0 : ∀ a, (![0, 0] : Fin 2 → Nat) a + S32x1.size a ≤ S32x1.size a
  h_S32x1 : 0 < S32x1.numel
  shapeCasts_S32x1_S32x1 : S32x1.ShapeCasts S32x1
  reduces_S512x3600_S3600 : S512x3600.Reduces [0] S3600
  shapeCasts_S3600_S1x3600 : S3600.ShapeCasts S1x3600
  reduces_S32x512_S32 : S32x512.Reduces [1] S32
  bitsLt_bf16_f32 : FTy.bits .bf16 < FTy.bits .f32
  broadcasts_S1x3600_S32x3600 : S1x3600.Broadcasts S32x3600
  broadcasts_S32x1_S32x3600 : S32x1.Broadcasts S32x3600
  iota_S32x3600_d1_w32 : S32x3600.Iotas .tc 32 [1]
  reduces_S32x3600_S3600 : S32x3600.Reduces [0] S3600
  reduces_S32x3600_S32 : S32x3600.Reduces [1] S32
  broadcasts_S32x1_S32x512 : S32x1.Broadcasts S32x512
  inb_S1x32x512_S1x32x512_0_0_0 : ∀ a, (![0, 0, 0] : Fin 3 → Nat) a + S1x32x512.size a ≤ S1x32x512.size a
  h_S1x32x512 : 0 < S1x32x512.numel
  shapeCasts_S1x32x512_S32x512 : S1x32x512.ShapeCasts S32x512
  shapeCasts_S32x512_S1x32x512 : S32x512.ShapeCasts S1x32x512
  dot_S32x512_S512x3600_S32x3600_1_0_0_1_n_n_wf : DotDims.WF S32x512 S512x3600 S32x3600 [1] [0] [0] [1] [] []
  dot_S32x3600_S512x3600_S32x512_1_1_0_0_n_n_wf : DotDims.WF S32x3600 S512x3600 S32x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x3600.size a ≤ S16x512x3600.size a
  hwx0_0 : ∀ i : grid0.Coords, EltTy.bits .f32 = 32 ∨ (Rect.block (s := S16x512x3600) S1x512x3600.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x512.size a ≤ S32x512.size a
  hwx0_1 : ∀ i : grid0.Coords, EltTy.bits .f32 = 32 ∨ (Rect.block (s := S32x512) S32x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x1.size a ≤ S32x1.size a
  hwx0_2 : ∀ i : grid0.Coords, EltTy.bits .f32 = 32 ∨ (Rect.block (s := S32x1) S32x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x32x512.size a ≤ S16x32x512.size a
  hwx0_3 : ∀ i : grid0.Coords, EltTy.bits .f32 = 32 ∨ (Rect.block (s := S16x32x512) S1x32x512.size (cc0_transform_3 i) (hinb0_3 i)).WholeWords (EltTy.packing .f32)

variable [Facts₀]

def dot_S32x512_S512x3600_S32x3600_1_0_0_1_n_n : DotDims S32x512 S512x3600 S32x3600 where
  lhsContracting := [1]
  rhsContracting := [0]
  lhsNonContracting := [0]
  rhsNonContracting := [1]
  lhsBatch := []
  rhsBatch := []
  wf := dot_S32x512_S512x3600_S32x3600_1_0_0_1_n_n_wf
def dot_S32x3600_S512x3600_S32x512_1_1_0_0_n_n : DotDims S32x3600 S512x3600 S32x512 where
  lhsContracting := [1]
  rhsContracting := [1]
  lhsNonContracting := [0]
  rhsNonContracting := [0]
  lhsBatch := []
  rhsBatch := []
  wf := dot_S32x3600_S512x3600_S32x512_1_1_0_0_n_n_wf

abbrev win0_0 : Pipeline.Window sig grid0 :=
  Pipeline.Window.ofSpec (Memref.whole main_v0) S1x512x3600.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S32x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x32x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x512x60x60 : Shape := ⟨4, ![16, 512, 60, 60]⟩
abbrev S32x512 : Shape := ⟨2, ![32, 512]⟩
abbrev S32 : Shape := ⟨1, ![32]⟩
abbrev S16x512x3600 : Shape := ⟨3, ![16, 512, 3600]⟩
abbrev S16x3600x512 : Shape := ⟨3, ![16, 3600, 512]⟩
abbrev S_ : Shape := ⟨0, ![]⟩
abbrev S16x3600 : Shape := ⟨2, ![16, 3600]⟩
abbrev S16x3600x32 : Shape := ⟨3, ![16, 3600, 32]⟩
abbrev S16x3600x1 : Shape := ⟨3, ![16, 3600, 1]⟩
abbrev S1x1x32 : Shape := ⟨3, ![1, 1, 32]⟩
abbrev S16x32x512 : Shape := ⟨3, ![16, 32, 512]⟩
abbrev S16x32 : Shape := ⟨2, ![16, 32]⟩
abbrev S16x32x1 : Shape := ⟨3, ![16, 32, 1]⟩
abbrev S1x32x512 : Shape := ⟨3, ![1, 32, 512]⟩

abbrev nBuf : Space → Nat
  | .hbm => 47
  | .vmem => 0
  | .smem => 0
  | _ => 0

abbrev bufTy : (tb : Table) → Fin (tcTables nBuf tb) → BufTy
  | .hbm, ⟨0, _⟩ => ⟨S16x512x60x60, .f32⟩
  | .hbm, ⟨1, _⟩ => ⟨S32x512, .f32⟩
  | .hbm, ⟨2, _⟩ => ⟨S32, .f32⟩
  | .hbm, ⟨3, _⟩ => ⟨S16x512x3600, .f32⟩
  | .hbm, ⟨4, _⟩ => ⟨S16x3600x512, .f32⟩
  | .hbm, ⟨5, _⟩ => ⟨S16x3600x512, .f32⟩
  | .hbm, ⟨6, _⟩ => ⟨S_, .f32⟩
  | .hbm, ⟨7, _⟩ => ⟨S16x3600, .f32⟩
  | .hbm, ⟨8, _⟩ => ⟨S32x512, .f32⟩
  | .hbm, ⟨9, _⟩ => ⟨S_, .f32⟩
  | .hbm, ⟨10, _⟩ => ⟨S32, .f32⟩
  | .hbm, ⟨11, _⟩ => ⟨S16x3600x32, .f32⟩
  | .hbm, ⟨12, _⟩ => ⟨S16x3600x1, .f32⟩
  | .hbm, ⟨13, _⟩ => ⟨S_, .f32⟩
  | .hbm, ⟨14, _⟩ => ⟨S16x3600x32, .f32⟩
  | .hbm, ⟨15, _⟩ => ⟨S16x3600x32, .f32⟩
  | .hbm, ⟨16, _⟩ => ⟨S16x3600x32, .f32⟩
  | .hbm, ⟨17, _⟩ => ⟨S16x3600x32, .f32⟩
  | .hbm, ⟨18, _⟩ => ⟨S1x1x32, .f32⟩
  | .hbm, ⟨19, _⟩ => ⟨S16x3600x32, .f32⟩
  | .hbm, ⟨20, _⟩ => ⟨S16x3600x32, .f32⟩
  | .hbm, ⟨21, _⟩ => ⟨S1x1x32, .f32⟩
  | .hbm, ⟨22, _⟩ => ⟨S16x3600x32, .f32⟩
  | .hbm, ⟨23, _⟩ => ⟨S16x3600x32, .f32⟩
  | .hbm, ⟨24, _⟩ => ⟨S_, .f32⟩
  | .hbm, ⟨25, _⟩ => ⟨S16x3600, .f32⟩
  | .hbm, ⟨26, _⟩ => ⟨S_, .f32⟩
  | .hbm, ⟨27, _⟩ => ⟨S16x3600, .f32⟩
  | .hbm, ⟨28, _⟩ => ⟨S16x3600, .f32⟩
  | .hbm, ⟨29, _⟩ => ⟨S16x3600x1, .f32⟩
  | .hbm, ⟨30, _⟩ => ⟨S16x3600x32, .f32⟩
  | .hbm, ⟨31, _⟩ => ⟨S16x3600x32, .f32⟩
  | .hbm, ⟨32, _⟩ => ⟨S16x3600x32, .f32⟩
  | .hbm, ⟨33, _⟩ => ⟨S_, .f32⟩
  | .hbm, ⟨34, _⟩ => ⟨S16x3600, .f32⟩
  | .hbm, ⟨35, _⟩ => ⟨S16x3600x1, .f32⟩
  | .hbm, ⟨36, _⟩ => ⟨S16x3600x32, .f32⟩
  | .hbm, ⟨37, _⟩ => ⟨S16x3600x32, .f32⟩
  | .hbm, ⟨38, _⟩ => ⟨S16x32x512, .f32⟩
  | .hbm, ⟨39, _⟩ => ⟨S_, .f32⟩
  | .hbm, ⟨40, _⟩ => ⟨S16x32, .f32⟩
  | .hbm, ⟨41, _⟩ => ⟨S16x32x1, .f32⟩
  | .hbm, ⟨42, _⟩ => ⟨S1x32x512, .f32⟩
  | .hbm, ⟨43, _⟩ => ⟨S16x32x512, .f32⟩
  | .hbm, ⟨44, _⟩ => ⟨S16x32x512, .f32⟩
  | .hbm, ⟨45, _⟩ => ⟨S16x32x512, .f32⟩
  | .hbm, ⟨46, _⟩ => ⟨S16x32x512, .f32⟩
  | _, _ => ⟨S16x512x60x60, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_5 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩

abbrev nD : Nat := 1
abbrev τ : Topo := Topo.v7x

variable {F : FTy → Type} [FloatOps F]

class Facts₀ : Prop where
  shapeCasts_S16x512x60x60_S16x512x3600 : S16x512x60x60.ShapeCasts S16x512x3600
  transposes_S16x512x3600_S16x3600x512_0_2_1 : S16x512x3600.Transposes [0, 2, 1] S16x3600x512
  reducesTo_S16x3600x512_S16x3600_d2 : S16x3600x512.ReducesTo [2] S16x3600
  h_S_ : 0 < S_.numel
  reducesTo_S32x512_S32_d1 : S32x512.ReducesTo [1] S32
  bcast_S16x3600_S16x3600x1_0_1 : S16x3600.BroadcastsInDim S16x3600x1 (![0, 1] : Fin 2 → Fin S16x3600x1.rank)
  bcast_S_S16x3600x32 : S_.BroadcastsInDim S16x3600x32 (![] : Fin 0 → Fin S16x3600x32.rank)
  bcast_S16x3600x1_S16x3600x32_0_1_2 : S16x3600x1.BroadcastsInDim S16x3600x32 (![0, 1, 2] : Fin 3 → Fin S16x3600x32.rank)
  bcast_S32_S1x1x32_2 : S32.BroadcastsInDim S1x1x32 (![2] : Fin 1 → Fin S1x1x32.rank)
  bcast_S1x1x32_S16x3600x32_0_1_2 : S1x1x32.BroadcastsInDim S16x3600x32 (![0, 1, 2] : Fin 3 → Fin S16x3600x32.rank)
  reducesTo_S16x3600x32_S16x3600_d2 : S16x3600x32.ReducesTo [2] S16x3600
  bcast_S_S16x3600 : S_.BroadcastsInDim S16x3600 (![] : Fin 0 → Fin S16x3600.rank)
  reducesTo_S16x3600x32_S16x32_d1 : S16x3600x32.ReducesTo [1] S16x32
  bcast_S16x32_S16x32x1_0_1 : S16x32.BroadcastsInDim S16x32x1 (![0, 1] : Fin 2 → Fin S16x32x1.rank)
  bcast_S32x512_S1x32x512_1_2 : S32x512.BroadcastsInDim S1x32x512 (![1, 2] : Fin 2 → Fin S1x32x512.rank)
  bcast_S16x32x1_S16x32x512_0_1_2 : S16x32x1.BroadcastsInDim S16x32x512 (![0, 1, 2] : Fin 3 → Fin S16x32x512.rank)
  bcast_S1x32x512_S16x32x512_0_1_2 : S1x32x512.BroadcastsInDim S16x32x512 (![0, 1, 2] : Fin 3 → Fin S16x32x512.rank)
  dot_S16x3600x512_S32x512_S16x3600x32_2_1_01_0_n_n_wf : DotDims.WF S16x3600x512 S32x512 S16x3600x32 [2] [1] [0, 1] [0] [] []
  dot_S16x3600x32_S16x3600x512_S16x32x512_1_1_2_2_0_0_wf : DotDims.WF S16x3600x32 S16x3600x512 S16x32x512 [1] [1] [2] [2] [0] [0]

variable [Facts₀]

def dot_S16x3600x512_S32x512_S16x3600x32_2_1_01_0_n_n : DotDims S16x3600x512 S32x512 S16x3600x32 where
  lhsContracting := [2]
  rhsContracting := [1]
  lhsNonContracting := [0, 1]
  rhsNonContracting := [0]
  lhsBatch := []
  rhsBatch := []
  wf := dot_S16x3600x512_S32x512_S16x3600x32_2_1_01_0_n_n_wf
def dot_S16x3600x32_S16x3600x512_S16x32x512_1_1_2_2_0_0 : DotDims S16x3600x32 S16x3600x512 S16x32x512 where
  lhsContracting := [1]
  rhsContracting := [1]
  lhsNonContracting := [2]
  rhsNonContracting := [2]
  lhsBatch := [0]
  rhsBatch := [0]
  wf := dot_S16x3600x32_S16x3600x512_S16x32x512_1_1_2_2_0_0_wf

class Facts : Prop extends Facts₀ where

variable [Facts]
-- ==== Proof.Encode.lean ====
/-
  The mathematics of the residual-encoding layer, for one sample and for the batch.

  One sample is a matrix x of 512 features by 3600 positions; the layer has 32 codewords C[k, ·] of 512 features
  and one scale s[k] per codeword. For position n and codeword k the scaled squared distance is expanded as
      logit[k, n] = s[k] · (‖x[·, n]‖² − 2 · ⟨C[k, ·], x[·, n]⟩ + ‖C[k, ·]‖²),
  the assignment weights are the softmax of the logits over the 32 codewords, taken in the stable form
  exp (logit − top) / Σ_k exp (logit − top) with top the largest logit of the position, and the layer returns
      E[k, d] = Σ_n weight[k, n] · x[d, n] − (Σ_n weight[k, n]) · C[k, d].
  Everything is read on the extended reals, where every operation below is the exact one; nothing here uses
  distributivity or cancellation, so no finiteness is needed to compare two programs that both spell this formula.
-/
import Idealize.ShloMosaic.PureOps.Ideal
import Idealize.ShloMosaic.PureOps.Ideal.Laws
import Idealize.ShloMosaic.Lib.ValueIdx

noncomputable section

open scoped BigOperators

namespace Cert.Encode

open Idealize.ShloMosaic Idealize.ShloMosaic.ValueIdx

/-- The factor 2 of the expanded square, as the single-precision word both programs carry. -/
abbrev two : EReal := Ideal.ofBits .f32 0x40000000#32
/-- The value a running maximum starts from: the word of −∞. -/
abbrev bottom : EReal := Ideal.ofBits .f32 0xFF800000#32

section Sample

variable (x : Fin 512 → Fin 3600 → EReal) (C : Fin 32 → Fin 512 → EReal) (s : Fin 32 → EReal)

/-- Squared norm of the feature vector at position n. -/
def tokSq (n : Fin 3600) : EReal := ∑ d : Fin 512, x d n * x d n
/-- Squared norm of codeword k. -/
def codeSq (k : Fin 32) : EReal := ∑ d : Fin 512, C k d * C k d
/-- Inner product of codeword k with the feature vector at position n. -/
def cross (k : Fin 32) (n : Fin 3600) : EReal := ∑ d : Fin 512, C k d * x d n
/-- Scaled squared distance between position n and codeword k, in expanded form. -/
def logit (k : Fin 32) (n : Fin 3600) : EReal := s k * (tokSq x n - two * cross x C k n + codeSq C k)
/-- Largest logit of position n: the running maximum over the codewords, started from −∞. -/
def top (n : Fin 3600) : EReal := (Finset.univ : Finset (Fin 32)).fold max bottom (fun k => logit x C s k n)
/-- Shifted exponential. -/
def expo (k : Fin 32) (n : Fin 3600) : EReal := Ideal.exp (logit x C s k n - top x C s n)
/-- Normaliser of position n. -/
def mass (n : Fin 3600) : EReal := ∑ k : Fin 32, expo x C s k n
/-- Softmax weight of codeword k at position n. -/
def weight (k : Fin 32) (n : Fin 3600) : EReal := Ideal.div (expo x C s k n) (mass x C s n)
/-- The aggregated residual of codeword k in feature d. -/
def aggregate (k : Fin 32) (d : Fin 512) : EReal :=
  (∑ n : Fin 3600, weight x C s k n * x d n) - (∑ n : Fin 3600, weight x C s k n) * C k d

end Sample

/-- The layer on the batch of 16 samples: X is the input with its two spatial axes merged into 3600 positions. -/
def G (X : (⟨3, ![16, 512, 3600]⟩ : Shape).Idx → EReal) (C : (⟨2, ![32, 512]⟩ : Shape).Idx → EReal)
    (s : (⟨1, ![32]⟩ : Shape).Idx → EReal) (b : Fin 16) (k : Fin 32) (d : Fin 512) : EReal :=
  aggregate (fun d n => X (ix3 b d n)) (fun k d => C (ix2 k d)) (fun k => s (ix1 k)) k d

/-- The same as an array of shape [16, 32, 512]. -/
def GA (X : (⟨3, ![16, 512, 3600]⟩ : Shape).Idx → EReal) (C : (⟨2, ![32, 512]⟩ : Shape).Idx → EReal)
    (s : (⟨1, ![32]⟩ : Shape).Idx → EReal) : (⟨3, ![16, 32, 512]⟩ : Shape).Idx → EReal :=
  fun i => G X C s (i 0) (i 1) (i 2)

theorem GA_ix3 (X : (⟨3, ![16, 512, 3600]⟩ : Shape).Idx → EReal) (C : (⟨2, ![32, 512]⟩ : Shape).Idx → EReal)
    (s : (⟨1, ![32]⟩ : Shape).Idx → EReal) (b : Fin 16) (k : Fin 32) (d : Fin 512) :
    GA X C s (ix3 b k d) = G X C s b k d := rfl

/-- The running maximum started from −∞ is not changed by one more comparison with −∞. -/
theorem max_bottom_top (x : Fin 512 → Fin 3600 → EReal) (C : Fin 32 → Fin 512 → EReal) (s : Fin 32 → EReal) (n : Fin 3600) :
    max bottom (top x C s n) = top x C s n :=
  max_eq_right ((Finset.le_fold_max _).mpr (Or.inl le_rfl))

end Cert.Encode

end
-- ==== Proof.RefSide.lean ====
/-
  The reference program computes the encoding layer's formula.

  The reference transposes each sample to positions × features, forms the three terms of the expanded squared
  distance, takes the softmax over the codewords with the usual shift by the largest logit (and one more comparison
  of that maximum with −∞, which changes nothing), and contracts the weights with the sample. Read one operation at a
  time at an index given by coordinates, every intermediate is the corresponding quantity of the formula: the
  transposition only exchanges the two coordinates, each broadcast repeats an entry, each sum starts from the zero
  word, and the product inside the first contraction has its factors in the other order.
-/
import proofs.«152427_j566935683618_2_alg».proof.Proof.Gen.ReferenceIdeal.Read
import proofs.«152427_j566935683618_2_alg».proof.Proof.Encode

noncomputable section

open scoped BigOperators

namespace Cert.RefSide

open Cert.ReferenceIdeal Cert.ReferenceIdeal.Gen Cert.ReferenceIdeal.Read
open Idealize.ShloMosaic Idealize.ShloMosaic.ValueIdx Cert.Encode

variable (x0 : (⟨S16x512x60x60, .f32⟩ : BufTy).Contents (Elt Ideal)) (x1 : (⟨S32x512, .f32⟩ : BufTy).Contents (Elt Ideal))
  (x2 : (⟨S32, .f32⟩ : BufTy).Contents (Elt Ideal))

/-- Sample b of the input with its spatial axes merged: features × positions. -/
abbrev xs (b : Fin 16) : Fin 512 → Fin 3600 → EReal := fun d n => val_main_v0 (F := Ideal) x0 (ix3 b d n)
/-- The codewords by coordinates. -/
abbrev cs : Fin 32 → Fin 512 → EReal := fun k d => x1 (ix2 k d)
/-- The scales by coordinate. -/
abbrev ss : Fin 32 → EReal := fun k => x2 (ix1 k)

/-- The transposed sample at (position, feature) is the sample at (feature, position). -/
theorem v1_at (b : Fin 16) (n : Fin 3600) (d : Fin 512) :
    val_main_v1 (F := Ideal) x0 (ix3 b n d) = val_main_v0 (F := Ideal) x0 (ix3 b d n) :=
  (val_main_v1_apply x0 _).trans (congrArg (val_main_v0 (F := Ideal) x0)
    (funext fun a => Fin.ext (by match a with | ⟨0, _⟩ => rfl | ⟨1, _⟩ => rfl | ⟨2, _⟩ => rfl)))

/-- The per-position sum of squares. -/
theorem v3_at (b : Fin 16) (n : Fin 3600) :
    val_main_v3 (F := Ideal) x0 (ix2 b n) = tokSq (xs x0 b) n := by
  refine (val_main_v3_apply x0 _).trans ?_
  show Ideal.ofBits .f32 0x00000000#32 + _ = _
  rw [Ideal.ofBits_zero_f32, zero_add]
  unfold tokSq
  refine Finset.sum_congr rfl fun d _ => ?_
  have e : idx_main_v3 (ix2 b n) d = ix3 b n d :=
    funext fun a => Fin.ext (by match a with | ⟨0, _⟩ => rfl | ⟨1, _⟩ => rfl | ⟨2, _⟩ => rfl)
  rw [val_main_v2_apply, e, v1_at]
  rfl

/-- The per-codeword sum of squares. -/
theorem v5_at (k : Fin 32) : val_main_v5 (F := Ideal) x1 (ix1 k) = codeSq (cs x1) k := by
  refine (val_main_v5_apply x1 _).trans ?_
  show Ideal.ofBits .f32 0x00000000#32 + _ = _
  rw [Ideal.ofBits_zero_f32, zero_add]
  unfold codeSq
  refine Finset.sum_congr rfl fun d _ => ?_
  have e : idx_main_v5 (ix1 k) d = ix2 k d :=
    funext fun a => Fin.ext (by match a with | ⟨0, _⟩ => rfl | ⟨1, _⟩ => rfl)
  rw [val_main_v4_apply, e]
  rfl

/-- The first contraction: position n of sample b against codeword k; the factors commute. -/
theorem v6_at (b : Fin 16) (n : Fin 3600) (k : Fin 32) :
    val_main_v6 (F := Ideal) x0 x1 (ix3 b n k) = cross (xs x0 b) (cs x1) k n := by
  refine (val_main_v6_apply x0 x1 _).trans ?_
  unfold cross
  refine Finset.sum_congr rfl fun d _ => ?_
  have e1 : lidx_main_v6 (ix3 b n k) d = ix3 b n d :=
    funext fun a => Fin.ext (by match a with | ⟨0, _⟩ => rfl | ⟨1, _⟩ => rfl | ⟨2, _⟩ => rfl)
  have e2 : ridx_main_v6 (ix3 b n k) d = ix2 k d :=
    funext fun a => Fin.ext (by match a with | ⟨0, _⟩ => rfl | ⟨1, _⟩ => rfl)
  rw [e1, e2, v1_at]
  exact mul_comm _ _

/-- The logits. -/
theorem v17_at (b : Fin 16) (n : Fin 3600) (k : Fin 32) :
    val_main_v17 (F := Ideal) x0 x1 x2 (ix3 b n k) = logit (xs x0 b) (cs x1) (ss x2) k n := by
  have h16 : val_main_v16 (F := Ideal) x2 (ix3 b n k) = x2 (ix1 k) := by
    rw [val_main_v16_apply, val_main_v15_apply]
    exact congrArg x2 (funext fun a => Fin.ext (by match a with | ⟨0, _⟩ => rfl))
  have h10 : val_main_v10 (F := Ideal) x0 (ix3 b n k) = tokSq (xs x0 b) n := by
    rw [val_main_v10_apply, val_main_v7_apply]
    exact (congrArg (val_main_v3 (F := Ideal) x0)
      (funext fun a => Fin.ext (by match a with | ⟨0, _⟩ => rfl | ⟨1, _⟩ => rfl))).trans (v3_at x0 b n)
  have h13 : val_main_v13 (F := Ideal) x1 (ix3 b n k) = codeSq (cs x1) k := by
    rw [val_main_v13_apply, val_main_v12_apply]
    exact (congrArg (val_main_v5 (F := Ideal) x1)
      (funext fun a => Fin.ext (by match a with | ⟨0, _⟩ => rfl))).trans (v5_at x1 k)
  rw [val_main_v17_apply, val_main_v14_apply, val_main_v11_apply, val_main_v9_apply, h16, h10, h13, v6_at]
  rfl

/-- The largest logit of a position: the reduction over the codeword axis is the running maximum from −∞. -/
theorem v18_at (b : Fin 16) (n : Fin 3600) :
    val_main_v18 (F := Ideal) x0 x1 x2 (ix2 b n) = top (xs x0 b) (cs x1) (ss x2) n := by
  have hR : S16x3600x32.Reduces [2] S16x3600 := by decide
  have key : ∀ y : S16x3600x32.Idx → Ideal .f32,
      Host.reduce (FloatOps.maximumf (F := Ideal) (φ := .f32)) y (val_main_cst_2 (F := Ideal))
          reducesTo_S16x3600x32_S16x3600_d2 h_S_ (ix2 b n)
        = (Finset.univ : Finset (Fin 32)).fold max bottom (fun k => y (ix3 b n k)) := by
    intro y
    refine (Host.reduce_eq_fold_single (FloatOps.maximumf (F := Ideal) (φ := .f32)) y (val_main_cst_2 (F := Ideal))
      reducesTo_S16x3600x32_S16x3600_d2 hR h_S_ (ix2 b n)).trans ?_
    refine Finset.fold_congr fun k _ => ?_
    exact congrArg y (funext fun a => Fin.ext (by match a with | ⟨0, _⟩ => rfl | ⟨1, _⟩ => rfl | ⟨2, _⟩ => rfl))
  unfold val_main_v18
  refine (key _).trans ?_
  unfold top
  refine Finset.fold_congr fun k _ => ?_
  exact v17_at x0 x1 x2 b n k

/-- One more comparison with −∞ leaves the maximum as it is. -/
theorem v20_at (b : Fin 16) (n : Fin 3600) :
    val_main_v20 (F := Ideal) x0 x1 x2 (ix2 b n) = top (xs x0 b) (cs x1) (ss x2) n := by
  rw [val_main_v20_apply, v18_at]
  exact max_bottom_top _ _ _ n

/-- The shifted exponentials. -/
theorem v24_at (b : Fin 16) (n : Fin 3600) (k : Fin 32) :
    val_main_v24 (F := Ideal) x0 x1 x2 (ix3 b n k) = expo (xs x0 b) (cs x1) (ss x2) k n := by
  have h22 : val_main_v22 (F := Ideal) x0 x1 x2 (ix3 b n k) = top (xs x0 b) (cs x1) (ss x2) n := by
    rw [val_main_v22_apply, val_main_v21_apply]
    exact (congrArg (val_main_v20 (F := Ideal) x0 x1 x2)
      (funext fun a => Fin.ext (by match a with | ⟨0, _⟩ => rfl | ⟨1, _⟩ => rfl))).trans (v20_at x0 x1 x2 b n)
  rw [val_main_v24_apply, val_main_v23_apply, h22, v17_at]
  rfl

/-- The normalisers. -/
theorem v25_at (b : Fin 16) (n : Fin 3600) :
    val_main_v25 (F := Ideal) x0 x1 x2 (ix2 b n) = mass (xs x0 b) (cs x1) (ss x2) n := by
  refine (val_main_v25_apply x0 x1 x2 _).trans ?_
  show Ideal.ofBits .f32 0x00000000#32 + _ = _
  rw [Ideal.ofBits_zero_f32, zero_add]
  unfold mass
  refine Finset.sum_congr rfl fun k _ => ?_
  exact (congrArg (val_main_v24 (F := Ideal) x0 x1 x2)
    (funext fun a => Fin.ext (by match a with | ⟨0, _⟩ => rfl | ⟨1, _⟩ => rfl | ⟨2, _⟩ => rfl))).trans (v24_at x0 x1 x2 b n k)

/-- The softmax weights. -/
theorem v28_at (b : Fin 16) (n : Fin 3600) (k : Fin 32) :
    val_main_v28 (F := Ideal) x0 x1 x2 (ix3 b n k) = weight (xs x0 b) (cs x1) (ss x2) k n := by
  have h27 : val_main_v27 (F := Ideal) x0 x1 x2 (ix3 b n k) = mass (xs x0 b) (cs x1) (ss x2) n := by
    rw [val_main_v27_apply, val_main_v26_apply]
    exact (congrArg (val_main_v25 (F := Ideal) x0 x1 x2)
      (funext fun a => Fin.ext (by match a with | ⟨0, _⟩ => rfl | ⟨1, _⟩ => rfl))).trans (v25_at x0 x1 x2 b n)
  rw [val_main_v28_apply, h27, v24_at]
  rfl

/-- The result: the second contraction minus the summed weights times the codeword. -/
theorem v36_at (b : Fin 16) (k : Fin 32) (d : Fin 512) :
    val_main_v36 (F := Ideal) x0 x1 x2 (ix3 b k d) = aggregate (xs x0 b) (cs x1) (ss x2) k d := by
  have h29 : val_main_v29 (F := Ideal) x0 x1 x2 (ix3 b k d)
      = ∑ n : Fin 3600, weight (xs x0 b) (cs x1) (ss x2) k n * xs x0 b d n := by
    refine (val_main_v29_apply x0 x1 x2 _).trans (Finset.sum_congr rfl fun n _ => ?_)
    have e1 : lidx_main_v29 (ix3 b k d) n = ix3 b n k :=
      funext fun a => Fin.ext (by match a with | ⟨0, _⟩ => rfl | ⟨1, _⟩ => rfl | ⟨2, _⟩ => rfl)
    have e2 : ridx_main_v29 (ix3 b k d) n = ix3 b n d :=
      funext fun a => Fin.ext (by match a with | ⟨0, _⟩ => rfl | ⟨1, _⟩ => rfl | ⟨2, _⟩ => rfl)
    rw [e1, e2, v28_at, v1_at]
  have h33 : val_main_v33 (F := Ideal) x0 x1 x2 (ix3 b k d) = ∑ n : Fin 3600, weight (xs x0 b) (cs x1) (ss x2) k n := by
    rw [val_main_v33_apply, val_main_v31_apply]
    refine (congrArg (val_main_v30 (F := Ideal) x0 x1 x2)
      (funext fun a => Fin.ext (by match a with | ⟨0, _⟩ => rfl | ⟨1, _⟩ => rfl) : _ = ix2 b k)).trans ?_
    refine (val_main_v30_apply x0 x1 x2 _).trans ?_
    show Ideal.ofBits .f32 0x00000000#32 + _ = _
    rw [Ideal.ofBits_zero_f32, zero_add]
    refine Finset.sum_congr rfl fun n _ => ?_
    exact (congrArg (val_main_v28 (F := Ideal) x0 x1 x2)
      (funext fun a => Fin.ext (by match a with | ⟨0, _⟩ => rfl | ⟨1, _⟩ => rfl | ⟨2, _⟩ => rfl))).trans (v28_at x0 x1 x2 b n k)
  have h34 : val_main_v34 (F := Ideal) x1 (ix3 b k d) = x1 (ix2 k d) := by
    rw [val_main_v34_apply, val_main_v32_apply]
    exact congrArg x1 (funext fun a => Fin.ext (by match a with | ⟨0, _⟩ => rfl | ⟨1, _⟩ => rfl))
  rw [val_main_v36_apply, val_main_v35_apply, h29, h33, h34]
  rfl

/-- The reference's result array is the layer's formula of the merged input, the codewords and the scales. -/
theorem ref_eq : val_main_v36 (F := Ideal) x0 x1 x2 = GA (val_main_v0 (F := Ideal) x0) x1 x2 := by
  funext i
  obtain ⟨b, k, d, rfl⟩ : ∃ (b : Fin 16) (k : Fin 32) (d : Fin 512), i = ix3 b k d := ⟨i 0, i 1, i 2, eq_ix3 i⟩
  exact v36_at x0 x1 x2 b k d

end Cert.RefSide

end
-- ==== Proof.LibAxisReduce.lean ====
/-
  A matrix reduced along one of its two axes, read at a coordinate, at the exact (extended-real) reading of the floats.

  For an a × b matrix M: the sum over the rows (axis 0) at column n is Σ_r M[r, n]; the sum over the columns (axis 1)
  at row r is Σ_c M[r, c]; and the maximum over the rows at column n is the running maximum of M[·, n] from the
  accumulator's value. These are the library's one-axis reduction laws with the inserted index written by coordinates,
  stated for any extents a and b.
-/
import Idealize.ShloMosaic.PureOps.Ideal.Laws
import Idealize.ShloMosaic.Lib.ValueIdx

noncomputable section

open scoped BigOperators

namespace Cert.LibAxisReduce

open Idealize.ShloMosaic Idealize.ShloMosaic.ValueIdx

variable {a b : ℕ} {φ : FTy}

/-- Sum over the rows of an a × b matrix, at column n. -/
theorem add_rows_apply (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (n : Fin b) :
    multiReduction .add [0] ⟨1, ![b]⟩ src acc h hφ hacc (ix1 n) = ∑ r : Fin a, src (ix2 r n) :=
  (Ideal.multiReduction_add_single src acc h hφ hacc (ix1 n)).trans
    (Finset.sum_congr rfl fun r _ => congrArg src
      (funext fun ax => Fin.ext (by match ax with | ⟨0, _⟩ => rfl | ⟨1, _⟩ => rfl)))

/-- Sum over the columns of an a × b matrix, at row r. -/
theorem add_cols_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ c : Fin b, src (ix2 r c) :=
  (Ideal.multiReduction_add_single src acc h hφ hacc (ix1 r)).trans
    (Finset.sum_congr rfl fun c _ => congrArg src
      (funext fun ax => Fin.ext (by match ax with | ⟨0, _⟩ => rfl | ⟨1, _⟩ => rfl)))

/-- Maximum over the rows of an a × b matrix, at column n: the running maximum from the accumulator's value. -/
theorem max_rows_apply (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ) (n : Fin b) :
    multiReduction .maximumf [0] ⟨1, ![b]⟩ src acc h hφ hacc (ix1 n)
      = (Finset.univ : Finset (Fin a)).fold max (Ideal.ofBits φ acc) (fun r => src (ix2 r n)) :=
  (Ideal.multiReduction_maximumf_single src acc h hφ hacc (ix1 n)).trans
    (Finset.fold_congr fun r _ => congrArg src
      (funext fun ax => Fin.ext (by match ax with | ⟨0, _⟩ => rfl | ⟨1, _⟩ => rfl)))

end Cert.LibAxisReduce

end
-- ==== Proof.LibPlainDot.lean ====
/-
  The plain matrix product read at an index.

  For the dimension numbers of an M×K by K×N product (contract the left operand's axis 1 with the right operand's
  axis 0, no batch axes), the sum over the contraction index that both a matmul into a zero accumulator and a
  host dot_general denote at the ideal values is the textbook one: entry (p, q) is the sum over l of
  lhs (p, l) · rhs (l, q).
-/
import Idealize.ShloMosaic.Lib.ValueIdx
import Idealize.ShloMosaic.PureOps.Ideal.Laws

noncomputable section

open scoped BigOperators

namespace Cert.LibPlainDot

open Idealize.ShloMosaic Idealize.ShloMosaic.ValueIdx

variable {M K N : ℕ}

/-- Row coordinate of the left operand's index: the output's row. -/
theorem lhs_row (j : (⟨2, ![M, N]⟩ : Shape).Idx) (k : (DotDims.plain M K N).contr.Idx) :
    ((DotDims.plain M K N).lhsIdx j k 0).val = (j 0).val := by
  unfold DotDims.lhsIdx
  have hb : ¬(0 : Fin 2) ∈ (DotDims.plain M K N).lhsBatch := List.not_mem_nil
  have hn : (0 : Fin 2) ∈ (DotDims.plain M K N).lhsNonContracting := List.mem_singleton.mpr rfl
  rw [dif_neg hb, dif_pos hn]
  rfl

/-- Column coordinate of the left operand's index: the contraction position. -/
theorem lhs_col (j : (⟨2, ![M, N]⟩ : Shape).Idx) (k : (DotDims.plain M K N).contr.Idx) :
    ((DotDims.plain M K N).lhsIdx j k 1).val = (k ⟨0, Nat.one_pos⟩).val :=
  (DotDims.plain M K N).lhsIdx_val_of_single rfl j k

/-- Row coordinate of the right operand's index: the contraction position. -/
theorem rhs_row (j : (⟨2, ![M, N]⟩ : Shape).Idx) (k : (DotDims.plain M K N).contr.Idx) :
    ((DotDims.plain M K N).rhsIdx j k 0).val = (k ⟨0, Nat.one_pos⟩).val :=
  (DotDims.plain M K N).rhsIdx_val_of_single rfl j k

/-- Column coordinate of the right operand's index: the output's column. -/
theorem rhs_col (j : (⟨2, ![M, N]⟩ : Shape).Idx) (k : (DotDims.plain M K N).contr.Idx) :
    ((DotDims.plain M K N).rhsIdx j k 1).val = (j 1).val := by
  unfold DotDims.rhsIdx
  have hb : ¬(1 : Fin 2) ∈ (DotDims.plain M K N).rhsBatch := List.not_mem_nil
  have hn : (1 : Fin 2) ∈ (DotDims.plain M K N).rhsNonContracting := List.mem_singleton.mpr rfl
  rw [dif_neg hb, dif_pos hn]
  rfl

/-- The contraction sum of a plain product at entry (p, q), re-indexed by the one contraction coordinate. -/
theorem contr_sum (lhs : (⟨2, ![M, K]⟩ : Shape).Idx → EReal) (rhs : (⟨2, ![K, N]⟩ : Shape).Idx → EReal)
    (p : Fin M) (q : Fin N) :
    (∑ k : (DotDims.plain M K N).contr.Idx,
        lhs ((DotDims.plain M K N).lhsIdx (ix2 p q) k) * rhs ((DotDims.plain M K N).rhsIdx (ix2 p q) k))
      = ∑ l : Fin K, lhs (ix2 p l) * rhs (ix2 l q) := by
  rw [← Equiv.sum_comp (contrEquiv1 (DotDims.plain M K N) K rfl rfl).symm]
  refine Finset.sum_congr rfl fun l _ => ?_
  have hl := contrEquiv1_symm_val (DotDims.plain M K N) K rfl rfl l
  have el : (DotDims.plain M K N).lhsIdx (ix2 p q) ((contrEquiv1 (DotDims.plain M K N) K rfl rfl).symm l) = ix2 p l :=
    funext fun a => Fin.ext (by
      match a with
      | ⟨0, _⟩ => exact lhs_row _ _
      | ⟨1, _⟩ => exact (lhs_col _ _).trans hl)
  have er : (DotDims.plain M K N).rhsIdx (ix2 p q) ((contrEquiv1 (DotDims.plain M K N) K rfl rfl).symm l) = ix2 l q :=
    funext fun a => Fin.ext (by
      match a with
      | ⟨0, _⟩ => exact (rhs_row _ _).trans hl
      | ⟨1, _⟩ => exact rhs_col _ _)
  rw [el, er]

/-- A matmul of plain dimension numbers into the zero accumulator, at the ideal values, read at entry (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant (F := Ideal) ⟨2, ![M, N]⟩ .f32 0x00000000#32) (ix2 p q)
      = ∑ l : Fin K, lhs (ix2 p l) * rhs (ix2 l q) :=
  (Ideal.matmul_constant_zero_apply (DotDims.plain M K N) prec lhs rhs (ix2 p q)).trans (contr_sum lhs rhs p q)

/-- A host dot_general of plain dimension numbers, at the ideal values, read at entry (p, q). -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ l : Fin K, lhs (ix2 p l) * rhs (ix2 l q) :=
  (Ideal.dotGeneral_apply (DotDims.plain M K N) prec sched lhs rhs (ix2 p q)).trans (contr_sum lhs rhs p q)

end Cert.LibPlainDot

end
-- ==== Proof.LibMatmulNT.lean ====
/-
  Two general facts about values read at an index, at the exact (extended-real) reading of the float operations.

  * The product `A · Bᵀ` of an `m × k` and an `n × k` matrix — a matrix unit's product whose dimension numbers contract
    the LAST axis of both operands and keep no batch axis — accumulated into the zero matrix, read at `(a, b)`, is the
    inner product of row `a` of `A` with row `b` of `B`:  Σ_{c < k} A[a, c] · B[b, c].
  * A block `[1, 1, a, b]` viewed as the matrix `[a, b]` reads `(0, 0, i, j)` at `(i, j)`.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.Gram

open Idealize.ShloMosaic Idealize.ShloMosaic.ValueIdx

/-- `A · Bᵀ` into the zero accumulator, read at `(a, b)`: the inner product of the two rows. `w` is the record's
    well-formedness, which a program states. -/
theorem matmul_nt_zero_apply {m n k : ℕ} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    matmul (⟨[1], [1], [0], [0], [], [], w⟩ : DotDims _ _ _) prec A B (constant ⟨2, ![m, n]⟩ .f32 0x00000000#32) (ix2 a b)
      = ∑ c : Fin k, A (ix2 a c) * B (ix2 b c) := by
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

/-- A `[1, 1, a, b]` block cast to the matrix `[a, b]` reads, at `(i, j)`, the block at `(0, 0, i, j)`. -/
theorem shapeCast_11ab_ab_apply {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp)

end Cert.Gram

end
-- ==== Proof.LibColumn.lean ====
/-
  Two keepdims column layouts read at an index given by coordinates.

  A length-a vector viewed as an a×1 column reads, at (i, 0), the vector at i; an a×1 column broadcast over b
  columns reads, at (p, c), the column's entry at row p.
-/
import Idealize.ShloMosaic.Lib.ValueLayout

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.LibSelectLt.lean ====
/-
  A select on a signed comparison of two small words is the `if` on the numbers.

  A 32-bit word `BitVec.ofNat 32 a` with a < 2^31 has its top bit clear, so read as a signed integer it is the number
  `a` itself. For two such words the signed "less than" is therefore the order of the natural numbers, and a
  `Scalar.select` on its bit chooses its first operand exactly when a < k. This is how a mask built from a counter
  (an iota along an axis) and a threshold constant reads at an index.
-/
import Idealize.ShloMosaic.PureOps
import Idealize.ShloMosaic.Lib.Affine

namespace Idealize.ShloMosaic.SelectLt

open Idealize.ShloMosaic

/-- The signed comparison's bit: for a, k < 2^31 the words compare as the numbers do. -/
theorem cmpi_slt_ofNat_iff (a k : Nat) (ha : a < 2 ^ 31) (hk : k < 2 ^ 31) :
    IntOp.cmpi .slt (BitVec.ofNat 32 a) (BitVec.ofNat 32 k) = 1#1 ↔ a < k := by
  have e1 := BitVec.toInt_eq_toNat_cond (BitVec.ofNat 32 a)
  have e2 := BitVec.toInt_eq_toNat_cond (BitVec.ofNat 32 k)
  rw [BitVec.toNat_ofNat] at e1 e2
  rw [IntOp.cmpi_slt]
  omega

/-- A select on "word of a is signed-less than word of k" is the `if` on a < k, for a, k < 2^31. -/
theorem select_slt_ofNat {α : Type} (a k : Nat) (ha : a < 2 ^ 31) (hk : k < 2 ^ 31) (A B : α) :
    Scalar.select (IntOp.cmpi .slt (BitVec.ofNat 32 a) (BitVec.ofNat 32 k)) A B = if a < k then A else B := by
  unfold Scalar.select
  exact if_congr (cmpi_slt_ofNat_iff a k ha hk) rfl rfl

end Idealize.ShloMosaic.SelectLt
-- ==== Proof.Payload.lean ====
/-
  The kernel body computes the layer's formula on one sample.

  At a grid point the body holds one sample x (a [1, 512, 3600] block: features × positions), the codewords C and the
  scales s as a column. Its arithmetic is the formula of the layer read in the features × positions layout, so no
  transposition appears: the squared norms are sums over the rows of x ⊙ x and over the columns of C ⊙ C, kept as a row
  and a column and broadcast back; the first contraction is the plain product C · x; the guard on the position counter
  compares a number below 3600 with 3600 and always keeps the logit, so the finite stand-in for −∞ is never selected;
  the softmax runs down the 32 rows; the second contraction is weights · xᵀ. Roundings to the half-width format are the
  identity on exact values. Each step is read at an index given by coordinates and lands on the corresponding quantity
  of the formula.
-/
import proofs.«152427_j566935683618_2_alg».proof.Proof.Gen.KernelIdeal.Value
import proofs.«152427_j566935683618_2_alg».proof.Proof.Encode
import proofs.«152427_j566935683618_2_alg».proof.Proof.LibAxisReduce
import proofs.«152427_j566935683618_2_alg».proof.Proof.LibPlainDot
import proofs.«152427_j566935683618_2_alg».proof.Proof.LibMatmulNT
import proofs.«152427_j566935683618_2_alg».proof.Proof.LibColumn
import proofs.«152427_j566935683618_2_alg».proof.Proof.LibSelectLt
import Idealize.ShloMosaic.Lib.ValueLayout
import Idealize.ShloMosaic.Lib.Pipeline.Value

noncomputable section

open scoped BigOperators

namespace Cert.Payload

open Cert.KernelIdeal Cert.KernelIdeal.Gen
open Idealize.ShloMosaic Idealize.ShloMosaic.ValueIdx Cert.Encode

variable (P0 : Vec Ideal S1x512x3600 .f32) (P1 : Vec Ideal S32x512 .f32) (P2 : Vec Ideal S32x1 .f32)

/-- The sample held in the block: features × positions. -/
abbrev bx : Fin 512 → Fin 3600 → EReal := fun d n => P0 (ix3 (0 : Fin 1) d n)
/-- The codewords by coordinates. -/
abbrev bc : Fin 32 → Fin 512 → EReal := fun k d => P1 (ix2 k d)
/-- The scales: the column's entries. -/
abbrev bs : Fin 32 → EReal := fun k => P2 (ix2 k (0 : Fin 1))

/-! ## The steps of the body, named one by one -/

/-- Per-position squared norms, as a row. -/
def tokRow : FVec Ideal S1x3600 .f32 :=
  shapeCast S1x3600 (multiReduction .add [0] S3600 (mulf (k0_pay2 P0) (k0_pay2 P0)) 0x00000000#32 reduces_S512x3600_S3600 (.inl rfl) rfl) shapeCasts_S3600_S1x3600
/-- Per-codeword squared norms, as a column. -/
def codeCol : FVec Ideal S32x1 .f32 :=
  shapeCast S32x1 (multiReduction .add [1] S32 (mulf P1 P1) 0x00000000#32 reduces_S32x512_S32 (.inl rfl) rfl) shapeCasts_S32_S32x1
/-- Codewords times sample. -/
def crossM : FVec Ideal S32x3600 .f32 :=
  matmul dot_S32x512_S512x3600_S32x3600_1_0_0_1_n_n none (truncf .bf16 P1 bitsLt_bf16_f32) (k0_pay3 P0) (constant S32x3600 .f32 0x00000000#32)
/-- The logits. -/
def logitM : FVec Ideal S32x3600 .f32 :=
  mulf (broadcastTo S32x3600 (shapeCast S32x1 P2 shapeCasts_S32x1_S32x1) broadcasts_S32x1_S32x3600)
    (addf (subf (broadcastTo S32x3600 (tokRow P0) broadcasts_S1x3600_S32x3600)
        (mulf (broadcast S32x3600 (Scalar.ofBits (F := Ideal) .f32 0x40000000#32)) (crossM P0 P1)))
      (broadcastTo S32x3600 (codeCol P1) broadcasts_S32x1_S32x3600))
/-- The logits behind the guard on the position counter. -/
def guardedM : FVec Ideal S32x3600 .f32 :=
  select (cmpi .slt (iota .tc S32x3600 32 [1] iota_S32x3600_d1_w32) (broadcast S32x3600 3600#32)) (logitM P0 P1 P2)
    (broadcast S32x3600 (Scalar.ofBits (F := Ideal) .f32 0xFF333332#32))
/-- Per-position maxima, as a row. -/
def topRow : FVec Ideal S1x3600 .f32 :=
  shapeCast S1x3600 (multiReduction .maximumf [0] S3600 (guardedM P0 P1 P2) 0xFF800000#32 reduces_S32x3600_S3600 (.inl rfl) rfl) shapeCasts_S3600_S1x3600
/-- Shifted exponentials. -/
def expoM : FVec Ideal S32x3600 .f32 :=
  exp (subf (guardedM P0 P1 P2) (broadcastTo S32x3600 (topRow P0 P1 P2) broadcasts_S1x3600_S32x3600))
/-- Per-position normalisers, as a row. -/
def massRow : FVec Ideal S1x3600 .f32 :=
  shapeCast S1x3600 (multiReduction .add [0] S3600 (expoM P0 P1 P2) 0x00000000#32 reduces_S32x3600_S3600 (.inl rfl) rfl) shapeCasts_S3600_S1x3600

/-- The weights payload is the quotient of the exponentials by the broadcast normalisers. -/
theorem pay4_eq : k0_pay4 P0 P1 P2 = divf (expoM P0 P1 P2) (broadcastTo S32x3600 (massRow P0 P1 P2) broadcasts_S1x3600_S32x3600) := rfl

/-! ## Each step at an index -/

/-- The block viewed as a matrix. -/
theorem pay2_at (d : Fin 512) (n : Fin 3600) : k0_pay2 P0 (ix2 d n) = bx P0 d n :=
  shapeCast_1ab_ab_apply P0 shapeCasts_S1x512x3600_S512x3600 d n

/-- Rounded to the half-width format: the same exact value. -/
theorem pay3_at (d : Fin 512) (n : Fin 3600) : k0_pay3 P0 (ix2 d n) = bx P0 d n :=
  pay2_at P0 d n

theorem tokRow_at (k : Fin 32) (n : Fin 3600) :
    broadcastTo S32x3600 (tokRow P0) broadcasts_S1x3600_S32x3600 (ix2 k n) = tokSq (bx P0) n := by
  refine (broadcastTo_1b_ab_apply (tokRow P0) broadcasts_S1x3600_S32x3600 k n).trans ?_
  refine (shapeCast_a_1a_apply _ shapeCasts_S3600_S1x3600 (0 : Fin 1) n).trans ?_
  refine (LibAxisReduce.add_rows_apply (mulf (k0_pay2 P0) (k0_pay2 P0)) 0x00000000#32 reduces_S512x3600_S3600 (.inl rfl) rfl n).trans ?_
  unfold tokSq
  refine Finset.sum_congr rfl fun d _ => ?_
  show k0_pay2 P0 (ix2 d n) * k0_pay2 P0 (ix2 d n) = _
  rw [pay2_at]

theorem codeCol_at (k : Fin 32) (n : Fin 3600) :
    broadcastTo S32x3600 (codeCol P1) broadcasts_S32x1_S32x3600 (ix2 k n) = codeSq (bc P1) k := by
  refine (LibColumn.broadcastTo_a1_ab_apply (codeCol P1) broadcasts_S32x1_S32x3600 k n).trans ?_
  refine (LibColumn.shapeCast_a_a1_apply _ shapeCasts_S32_S32x1 k (0 : Fin 1)).trans ?_
  exact LibAxisReduce.add_cols_apply (mulf P1 P1) 0x00000000#32 reduces_S32x512_S32 (.inl rfl) rfl k

theorem crossM_at (k : Fin 32) (n : Fin 3600) : crossM P0 P1 (ix2 k n) = cross (bx P0) (bc P1) k n := by
  refine (LibPlainDot.matmul_zero_apply (M := 32) (K := 512) (N := 3600) none (truncf .bf16 P1 bitsLt_bf16_f32) (k0_pay3 P0) k n).trans ?_
  unfold cross
  refine Finset.sum_congr rfl fun d _ => ?_
  rw [pay3_at]
  rfl

theorem scale_at (k : Fin 32) (n : Fin 3600) :
    broadcastTo S32x3600 (shapeCast S32x1 P2 shapeCasts_S32x1_S32x1) broadcasts_S32x1_S32x3600 (ix2 k n) = bs P2 k := by
  refine (LibColumn.broadcastTo_a1_ab_apply _ broadcasts_S32x1_S32x3600 k n).trans ?_
  rw [shapeCast_self]

theorem logitM_at (k : Fin 32) (n : Fin 3600) : logitM P0 P1 P2 (ix2 k n) = logit (bx P0) (bc P1) (bs P2) k n := by
  show (broadcastTo S32x3600 (shapeCast S32x1 P2 shapeCasts_S32x1_S32x1) broadcasts_S32x1_S32x3600 (ix2 k n))
      * ((broadcastTo S32x3600 (tokRow P0) broadcasts_S1x3600_S32x3600 (ix2 k n) - two * crossM P0 P1 (ix2 k n))
        + broadcastTo S32x3600 (codeCol P1) broadcasts_S32x1_S32x3600 (ix2 k n)) = _
  rw [scale_at, tokRow_at, crossM_at, codeCol_at]
  rfl

/-- The guard keeps every logit: the position counter is below 3600. -/
theorem guardedM_at (k : Fin 32) (n : Fin 3600) : guardedM P0 P1 P2 (ix2 k n) = logit (bx P0) (bc P1) (bs P2) k n := by
  have hn : 0 * 3600 + n.val < 3600 := by have := n.isLt; omega
  show Scalar.select (IntOp.cmpi .slt (BitVec.ofNat 32 (0 * 3600 + n.val)) (BitVec.ofNat 32 3600)) (logitM P0 P1 P2 (ix2 k n)) _ = _
  rw [SelectLt.select_slt_ofNat _ _ (by omega) (by norm_num), if_pos hn, logitM_at]

theorem topRow_at (k : Fin 32) (n : Fin 3600) :
    broadcastTo S32x3600 (topRow P0 P1 P2) broadcasts_S1x3600_S32x3600 (ix2 k n) = top (bx P0) (bc P1) (bs P2) n := by
  refine (broadcastTo_1b_ab_apply (topRow P0 P1 P2) broadcasts_S1x3600_S32x3600 k n).trans ?_
  refine (shapeCast_a_1a_apply _ shapeCasts_S3600_S1x3600 (0 : Fin 1) n).trans ?_
  refine (LibAxisReduce.max_rows_apply (guardedM P0 P1 P2) 0xFF800000#32 reduces_S32x3600_S3600 (.inl rfl) rfl n).trans ?_
  unfold top
  refine Finset.fold_congr fun j _ => ?_
  exact guardedM_at P0 P1 P2 j n

theorem expoM_at (k : Fin 32) (n : Fin 3600) : expoM P0 P1 P2 (ix2 k n) = expo (bx P0) (bc P1) (bs P2) k n := by
  show Ideal.exp (guardedM P0 P1 P2 (ix2 k n) - broadcastTo S32x3600 (topRow P0 P1 P2) broadcasts_S1x3600_S32x3600 (ix2 k n)) = _
  rw [guardedM_at, topRow_at]
  rfl

theorem massRow_at (k : Fin 32) (n : Fin 3600) :
    broadcastTo S32x3600 (massRow P0 P1 P2) broadcasts_S1x3600_S32x3600 (ix2 k n) = mass (bx P0) (bc P1) (bs P2) n := by
  refine (broadcastTo_1b_ab_apply (massRow P0 P1 P2) broadcasts_S1x3600_S32x3600 k n).trans ?_
  refine (shapeCast_a_1a_apply _ shapeCasts_S3600_S1x3600 (0 : Fin 1) n).trans ?_
  refine (LibAxisReduce.add_rows_apply (expoM P0 P1 P2) 0x00000000#32 reduces_S32x3600_S3600 (.inl rfl) rfl n).trans ?_
  unfold mass
  exact Finset.sum_congr rfl fun j _ => expoM_at P0 P1 P2 j n

/-- The weights payload at (codeword, position). -/
theorem pay4_at (k : Fin 32) (n : Fin 3600) : k0_pay4 P0 P1 P2 (ix2 k n) = weight (bx P0) (bc P1) (bs P2) k n := by
  rw [pay4_eq]
  show Ideal.div (expoM P0 P1 P2 (ix2 k n)) (broadcastTo S32x3600 (massRow P0 P1 P2) broadcasts_S1x3600_S32x3600 (ix2 k n)) = _
  rw [expoM_at, massRow_at]
  rfl

/-- The second contraction at (codeword, feature): weights against the sample's row. -/
theorem pay5_at (k : Fin 32) (d : Fin 512) :
    k0_pay5 P0 P1 P2 (ix2 k d) = ∑ n : Fin 3600, weight (bx P0) (bc P1) (bs P2) k n * bx P0 d n := by
  refine (Gram.matmul_nt_zero_apply (m := 32) (n := 512) (k := 3600) dot_S32x3600_S512x3600_S32x512_1_1_0_0_n_n_wf none
    (truncf .bf16 (k0_pay4 P0 P1 P2) bitsLt_bf16_f32) (k0_pay3 P0) k d).trans ?_
  refine Finset.sum_congr rfl fun n _ => ?_
  rw [pay3_at]
  show k0_pay4 P0 P1 P2 (ix2 k n) * _ = _
  rw [pay4_at]

/-- The summed weights of a codeword. -/
theorem rowsum_at (k : Fin 32) :
    multiReduction .add [1] S32 (k0_pay4 P0 P1 P2) 0x00000000#32 reduces_S32x3600_S32 (.inl rfl) rfl (ix1 k)
      = ∑ n : Fin 3600, weight (bx P0) (bc P1) (bs P2) k n :=
  (LibAxisReduce.add_cols_apply (k0_pay4 P0 P1 P2) 0x00000000#32 reduces_S32x3600_S32 (.inl rfl) rfl k).trans
    (Finset.sum_congr rfl fun n _ => pay4_at P0 P1 P2 k n)

/-- What the body leaves in the output block, entry by entry: the layer's formula on the sample it holds. -/
theorem block_at (u : Fin 1) (k : Fin 32) (d : Fin 512) :
    Cert.KernelIdeal.Value.E3 P0 P1 P2 (ix3 u k d) = aggregate (bx P0) (bc P1) (bs P2) k d := by
  have e0 : Cert.KernelIdeal.Value.ix3_0 (ix3 u k d) = ix2 k d :=
    funext fun a => Fin.ext (by match a with | ⟨0, _⟩ => rfl | ⟨1, _⟩ => rfl)
  have e1 : Cert.KernelIdeal.Value.ix3_1 (ix3 u k d) = ix1 k :=
    funext fun a => Fin.ext (by match a with | ⟨0, _⟩ => rfl)
  have e2 : Cert.KernelIdeal.Value.ix3_2 (ix3 u k d) = ix2 k d :=
    funext fun a => Fin.ext (by match a with | ⟨0, _⟩ => rfl | ⟨1, _⟩ => rfl)
  show k0_pay5 P0 P1 P2 (Cert.KernelIdeal.Value.ix3_0 (ix3 u k d))
      - (multiReduction .add [1] S32 (k0_pay4 P0 P1 P2) 0x00000000#32 reduces_S32x3600_S32 (.inl rfl) rfl (Cert.KernelIdeal.Value.ix3_1 (ix3 u k d)))
        * P1 (Cert.KernelIdeal.Value.ix3_2 (ix3 u k d)) = _
  rw [e0, e1, e2, pay5_at, rowsum_at]
  rfl

end Cert.Payload

end
-- ==== Proof.Blocks.lean ====
/-
  From the kernel's blocks to its result array.

  The grid has one point per sample. At point t the first window holds sample t of the merged input (block index
  (t, 0, 0) of blocks [1, 512, 3600]), the second and third hold the whole codeword matrix and the whole scale column
  (block index (0, 0) at every point), and the output window writes block (t, 0, 0) of blocks [1, 32, 512]. An entry of
  a block therefore sits in its array at block index × block size + its own coordinate, which is (t, ·, ·) for the two
  three-axis windows and the coordinate itself for the two resident ones. What point t writes back is the layer's
  formula on sample t, that is block t of the formula on the batch; the sixteen blocks tile the result array, so the
  array ends holding the formula everywhere. The scale column is the scale vector viewed as [32, 1], and the merged
  input is the input with its two spatial axes flattened — the same flattening the reference starts with.
-/
import proofs.«152427_j566935683618_2_alg».proof.Proof.Gen.KernelIdeal.Value
import proofs.«152427_j566935683618_2_alg».proof.Proof.Payload
import Idealize.ShloMosaic.Lib.Pipeline.Value
import Idealize.ShloMosaic.Lib.StableHlo.Run
import Idealize.ShloMosaic.Lib.Tactic

noncomputable section

open scoped BigOperators

namespace Cert.Blocks

open Cert.KernelIdeal Cert.KernelIdeal.Gen Cert.KernelIdeal.Value
open Idealize.ShloMosaic Idealize.ShloMosaic.TcCoe Idealize.SL.Sem Idealize.ShloMosaic.ValueIdx Cert.Encode
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The block index of every window at every grid point. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- A grid point as a sample number. -/
abbrev sample (t : Fin cfg0.N) : Fin 16 := ⟨t.val, lt_of_lt_of_eq t.isLt N_0⟩

/-! ## The arrays as the region finds them -/

/-- The merged input is the input with its spatial axes flattened. -/
theorem V_merged (c : Dev nD) :
    (V m c main_v0 : S16x512x3600.Idx → EReal)
      = shapeCast S16x512x3600 (m ((c : Thread nD τ).loc main_arg0)) shapeCasts_S16x512x60x60_S16x512x3600 := by
  dsimp only [Gen.V, Gen.hostOps0]; after_results; rfl

/-- The scale column is the scale vector viewed as [32, 1]. -/
theorem V_column (c : Dev nD) :
    (V m c main_v1 : S32x1.Idx → EReal)
      = shapeCast S32x1 (m ((c : Thread nD τ).loc main_arg2)) shapeCasts_S32_S32x1 := by
  dsimp only [Gen.V, Gen.hostOps0]; after_results; rfl

/-! ## The input blocks at a point -/

/-- The sample block at point t is sample t of the merged input. -/
theorem sample_block (c : Dev nD) (t : Fin cfg0.N) (d : Fin 512) (n : Fin 3600) :
    (iblk m c 0 t : Vec Ideal S1x512x3600 .f32) (ix3 (0 : Fin 1) d n) = (V m c main_v0 : S16x512x3600.Idx → EReal) (ix3 (sample t) d n) := by
  obtain ⟨e0, e1, e2, -⟩ := idx_facts t
  unfold iblk
  rw [View.read_apply]
  show V m c main_v0 _ = V m c main_v0 _
  refine congrArg (V m c main_v0) ?_
  funext a
  apply Fin.ext
  match a with
  | ⟨0, _⟩ => show win0_0.index t (0 : Fin 3) * 1 + 1 * 0 = t.val; omega
  | ⟨1, _⟩ => show win0_0.index t (1 : Fin 3) * 512 + 1 * d.val = d.val; omega
  | ⟨2, _⟩ => show win0_0.index t (2 : Fin 3) * 3600 + 1 * n.val = n.val; omega

/-- The codeword block at every point is the codeword matrix. -/
theorem code_block (c : Dev nD) (t : Fin cfg0.N) (k : Fin 32) (d : Fin 512) :
    (iblk m c 1 t : Vec Ideal S32x512 .f32) (ix2 k d) = (m ((c : Thread nD τ).loc main_arg1) : S32x512.Idx → EReal) (ix2 k d) := by
  obtain ⟨-, -, -, e0, e1, -⟩ := idx_facts t
  unfold iblk
  rw [View.read_apply]
  show V m c main_arg1 _ = _
  rw [V_main_arg1]
  refine congrArg (m ((c : Thread nD τ).loc main_arg1)) ?_
  funext a
  apply Fin.ext
  match a with
  | ⟨0, _⟩ => show win0_1.index t (0 : Fin 2) * 32 + 1 * k.val = k.val; omega
  | ⟨1, _⟩ => show win0_1.index t (1 : Fin 2) * 512 + 1 * d.val = d.val; omega

/-- The scale block at every point holds the scale vector down its one column. -/
theorem scale_block (c : Dev nD) (t : Fin cfg0.N) (k : Fin 32) :
    (iblk m c 2 t : Vec Ideal S32x1 .f32) (ix2 k (0 : Fin 1)) = (m ((c : Thread nD τ).loc main_arg2) : S32.Idx → EReal) (ix1 k) := by
  obtain ⟨-, -, -, -, -, e0, e1, -⟩ := idx_facts t
  unfold iblk
  rw [View.read_apply]
  show (V m c main_v1 : S32x1.Idx → EReal) _ = _
  rw [V_column]
  refine Eq.trans (congrArg (shapeCast S32x1 (m ((c : Thread nD τ).loc main_arg2)) shapeCasts_S32_S32x1) ?_)
    (LibColumn.shapeCast_a_a1_apply (m ((c : Thread nD τ).loc main_arg2)) shapeCasts_S32_S32x1 k (0 : Fin 1))
  funext a
  apply Fin.ext
  match a with
  | ⟨0, _⟩ => show win0_2.index t (0 : Fin 2) * 32 + 1 * k.val = k.val; omega
  | ⟨1, _⟩ => show win0_2.index t (1 : Fin 2) * 1 + 1 * 0 = 0; omega

/-! ## What a point writes back -/

/-- The body's output block, for any three input blocks, is the layer's formula on the sample the first one holds. -/
theorem out_at (x0 : Vec Ideal S1x512x3600 .f32) (x1 : Vec Ideal S32x512 .f32) (x2 : Vec Ideal S32x1 .f32)
    (u : Fin 1) (k : Fin 32) (d : Fin 512) :
    out0_3 x0 x1 x2 (ix3 u k d) = aggregate (Payload.bx x0) (Payload.bc x1) (Payload.bs x2) k d := by
  unfold out0_3
  refine (canon3_eq _ _ _ (ix3 u k d)).trans ?_
  simp only [View.ld_unit_zero (S := S1x512x3600) hz3, View.ld_unit_zero (S := S32x512) hz2, View.ld_unit_zero (S := S32x1) hz2]
  exact Payload.block_at x0 x1 x2 u k d

/-- The layer's formula on the batch, of the arrays as the region finds them. -/
def kG (c : Dev nD) : S16x32x512.Idx → EReal :=
  GA (V m c main_v0) (m ((c : Thread nD τ).loc main_arg1)) (m ((c : Thread nD τ).loc main_arg2))

/-- Point t writes back block t of the formula on the batch. -/
theorem flushed_eq (c : Dev nD) (t : Fin cfg0.N) :
    (dats m 0 c).flushed 3 t = ((cfg0.win 3).blk t).view.read (Elt Ideal) (kG m c) := by
  obtain ⟨-, -, -, -, -, -, -, e0, e1, e2⟩ := idx_facts t
  rw [flushed3]
  refine funext ?_
  show ∀ y : S1x32x512.Idx, out0_3 (iblk m c 0 t) (iblk m c 1 t) (iblk m c 2 t) y
    = ((cfg0.win 3).blk t).view.read (Elt Ideal) (kG m c) y
  intro y
  obtain ⟨u, k, d, rfl⟩ : ∃ (u : Fin 1) (k : Fin 32) (d : Fin 512), y = ix3 u k d := ⟨y 0, y 1, y 2, eq_ix3 y⟩
  have hu : u.val = 0 := by omega
  have hemb : ((cfg0.win 3).blk t).view.emb (ix3 u k d) = ix3 (sample t) k d := by
    funext a
    apply Fin.ext
    match a with
    | ⟨0, _⟩ => show win0_3.index t (0 : Fin 3) * 1 + 1 * u.val = t.val; omega
    | ⟨1, _⟩ => show win0_3.index t (1 : Fin 3) * 32 + 1 * k.val = k.val; omega
    | ⟨2, _⟩ => show win0_3.index t (2 : Fin 3) * 512 + 1 * d.val = d.val; omega
  rw [View.read_apply]
  show _ = kG m c (((cfg0.win 3).blk t).view.emb (ix3 u k d))
  rw [hemb]
  refine (out_at (iblk m c 0 t) (iblk m c 1 t) (iblk m c 2 t) u k d).trans ?_
  show _ = aggregate (fun d n => (V m c main_v0 : S16x512x3600.Idx → EReal) (ix3 (sample t) d n))
    (fun k d => (m ((c : Thread nD τ).loc main_arg1) : S32x512.Idx → EReal) (ix2 k d))
    (fun k => (m ((c : Thread nD τ).loc main_arg2) : S32.Idx → EReal) (ix1 k)) k d
  have hx : Payload.bx (iblk m c 0 t) = fun d n => (V m c main_v0 : S16x512x3600.Idx → EReal) (ix3 (sample t) d n) :=
    funext fun d => funext fun n => sample_block m c t d n
  have hc : Payload.bc (iblk m c 1 t) = fun k d => (m ((c : Thread nD τ).loc main_arg1) : S32x512.Idx → EReal) (ix2 k d) :=
    funext fun k => funext fun d => code_block m c t k d
  have hs : Payload.bs (iblk m c 2 t) = fun k => (m ((c : Thread nD τ).loc main_arg2) : S32.Idx → EReal) (ix1 k) :=
    funext fun k => scale_block m c t k
  rw [hx, hc, hs]

/-! ## The cover and the run -/

/-- An index of the result array is in point t's block iff each coordinate is in the block's range on its axis. -/
theorem mem_blk (t : Fin cfg0.N) (i : S16x32x512.Idx) :
    i ∈ ((cfg0.win 3).blk t).view.set ↔ ∀ a : Fin 3, win0_3.index t a * S1x32x512.size a ≤ (i a).val ∧ (i a).val < win0_3.index t a * S1x32x512.size a + S1x32x512.size a := by
  show i ∈ ((View.whole main_v2).slice (win0_3.rect t)).set ↔ _
  rw [View.set_slice_whole, Rect.mem_set_unit]
  exact Iff.rfl

/-- Every index of the result array lies in the block of the point numbered by its sample coordinate. -/
theorem cover (i : S16x32x512.Idx) : ∃ t : Fin cfg0.N, (cfg0.win 3).flush t = true ∧ i ∈ ((cfg0.win 3).blk t).view.set := by
  have hi0 : (i 0).val < 16 := (i 0).isLt
  have hi1 : (i 1).val < 32 := (i 1).isLt
  have hi2 : (i 2).val < 512 := (i 2).isLt
  have hN : cfg0.N = 16 := N_0
  obtain ⟨t, ht⟩ : ∃ t : Fin cfg0.N, t.val = (i 0).val := ⟨⟨(i 0).val, by rw [hN]; exact hi0⟩, rfl⟩
  obtain ⟨-, -, -, -, -, -, -, e0, e1, e2⟩ := idx_facts t
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; rw [e0, ht]; omega
  | ⟨1, _⟩ => show win0_3.index t (1 : Fin 3) * 32 ≤ (i 1).val ∧ (i 1).val < win0_3.index t (1 : Fin 3) * 32 + 32; rw [e1]; omega
  | ⟨2, _⟩ => show win0_3.index t (2 : Fin 3) * 512 ≤ (i 2).val ∧ (i 2).val < win0_3.index t (2 : Fin 3) * 512 + 512; rw [e2]; omega

/-- The result array after the run is the layer's formula of the flattened input, the codewords and the scales. -/
theorem final (c : Dev nD) : (dats m 0 c).arrAt 3 cfg0.N
    = GA (shapeCast S16x512x3600 (m ((c : Thread nD τ).loc main_arg0)) shapeCasts_S16x512x60x60_S16x512x3600)
        (m ((c : Thread nD τ).loc main_arg1)) (m ((c : Thread nD τ).loc main_arg2)) := by
  refine ((dats m 0 c).arrAt_eq_of_cover 3 (kG m c) (fun t _ => flushed_eq m c t) cover).trans ?_
  unfold kG
  rw [V_merged]

/-- The kernel's run, read: the result at the formula, the arguments unchanged. -/
theorem run : θ_run defs (onTc (τ := τ) (main (F := Ideal))) ⟨m, fun _ => 0, ρ⟩ fun r => ∀ c : Dev nD,
      r.2.mem ((c : Thread nD τ).loc main_v2)
        = GA (shapeCast S16x512x3600 (m ((c : Thread nD τ).loc main_arg0)) shapeCasts_S16x512x60x60_S16x512x3600)
            (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.Blocks

end
-- ==== Proof.lean ====
/-
  The certificate of the residual-encoding kernel against its reference.

  Both programs compute, for each of 16 samples x (512 features × 3600 positions), 32 codewords C and scales s,
      E[k, d] = Σ_n w[k, n] · x[d, n] − (Σ_n w[k, n]) · C[k, d],
  where w[·, n] is the softmax over the codewords of s[k] · (‖x[·, n]‖² − 2 ⟨C[k, ·], x[·, n]⟩ + ‖C[k, ·]‖²).
  The kernel works on one sample per grid point in the features × positions layout; the reference transposes the whole
  batch to positions × features. On the extended reals the two spell the same expression: the sums are the same sums
  in another layout, the products of the first contraction have their factors exchanged, the kernel's guard on the
  position counter never replaces a logit, and the reference's extra comparison of the maximum with −∞ changes nothing.
  So neither distributivity nor cancellation is used, and the finiteness of the inputs is not needed for the values.

  The three frames are the generated frame certificates (the reference's from its generated run); the idealization
  rewrote nothing, so the kernel's idealized text is its own text; the value claim sets the kernel's run, read block by
  block, beside the reference's run, read operation by operation.
-/
import proofs.«152427_j566935683618_2_alg».proof.Defs
import proofs.«152427_j566935683618_2_alg».proof.Proof.Gen.Kernel
import proofs.«152427_j566935683618_2_alg».proof.Proof.Gen.Kernel.Skeleton
import proofs.«152427_j566935683618_2_alg».proof.Proof.Gen.Kernel.Launch
import proofs.«152427_j566935683618_2_alg».proof.Proof.Gen.Kernel.Points
import proofs.«152427_j566935683618_2_alg».proof.Proof.Gen.Kernel.Frame
import proofs.«152427_j566935683618_2_alg».proof.Proof.Gen.KernelIdeal
import proofs.«152427_j566935683618_2_alg».proof.Proof.Gen.KernelIdeal.Skeleton
import proofs.«152427_j566935683618_2_alg».proof.Proof.Gen.KernelIdeal.Launch
import proofs.«152427_j566935683618_2_alg».proof.Proof.Gen.KernelIdeal.Points
import proofs.«152427_j566935683618_2_alg».proof.Proof.Gen.KernelIdeal.Frame
import proofs.«152427_j566935683618_2_alg».proof.Proof.Gen.ReferenceIdeal
import proofs.«152427_j566935683618_2_alg».proof.Proof.Gen.Pre_finite_inputs
import proofs.«152427_j566935683618_2_alg».proof.Proof.Gen.KernelIdeal.Value
import proofs.«152427_j566935683618_2_alg».proof.Proof.Gen.ReferenceIdeal.Run
import proofs.«152427_j566935683618_2_alg».proof.Proof.Gen.ReferenceIdeal.Read
import proofs.«152427_j566935683618_2_alg».proof.Proof.RefSide
import proofs.«152427_j566935683618_2_alg».proof.Proof.Blocks
import Idealize.ShloMosaic.Adequacy
import Idealize.ShloMosaic.Init

noncomputable section

namespace Cert.Proof

open Idealize.ShloMosaic Idealize.SL.Sem

/-- The kernel as printed runs to the end and leaves its arguments as they were. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten. -/
theorem preserves : Cert.preserves_Kernel_KernelIdeal := trivial

/-- From memories agreeing on the three arguments, the kernel's result array and the reference's are both the
    layer's formula of the flattened input, the codewords and the scales. -/
theorem algebraic : Cert.algebraic_KernelIdeal_ReferenceIdeal := by
  intro m ρ m' ρ' _ hagree
  refine ⟨_, Cert.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v36_eq, Cert.RefSide.ref_eq, (hagree c).1, (hagree c).2.1, (hagree c).2.2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
